-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2x8x1024x2 : Shape := ⟨5, ![4, 2, 8, 1024, 2]⟩
abbrev S_ : Shape := ⟨0, ![]⟩

class Facts : Prop where
  bcast_S_S4x2x8x1024x2 : S_.BroadcastsInDim S4x2x8x1024x2 (![] : Fin 0 → Fin S4x2x8x1024x2.rank)
  reducesTo_S4x2x8x1024x2_S_d0_1_2_3_4 : S4x2x8x1024x2.ReducesTo [0, 1, 2, 3, 4] S_
  h_S_ : 0 < S_.numel

variable [Facts]

def fn {F : FTy → Type} [FloatOps F] (main_arg0 : FVec F S4x2x8x1024x2 .f32) : IVec S_ 1 :=
  let main_v0 : FVec F S4x2x8x1024x2 .f32 := Host.absf main_arg0
  let main_cst : FVec F S_ .f32 := constant S_ .f32 0x7F800000#32
  let main_v1 : FVec F S4x2x8x1024x2 .f32 := broadcastInDim S4x2x8x1024x2 ![] bcast_S_S4x2x8x1024x2 main_cst
  let main_v2 : IVec S4x2x8x1024x2 1 := cmpf .olt main_v0 main_v1
  let main_c : IVec S_ 1 := constantI S_ 1 1#1
  let main_v3 : IVec S_ 1 := (fun x v => Host.reduce IntOp.andi x v reducesTo_S4x2x8x1024x2_S_d0_1_2_3_4 h_S_) main_v2 main_c
  main_v3
-- ==== Kernel.lean ====
abbrev S4x2x8x1024x2 : Shape := ⟨5, ![4, 2, 8, 1024, 2]⟩
abbrev S4x2x8x2x1024 : Shape := ⟨5, ![4, 2, 8, 2, 1024]⟩
abbrev S4x4x8x1024x1024 : Shape := ⟨5, ![4, 4, 8, 1024, 1024]⟩
abbrev S1x2x1x256x2 : Shape := ⟨5, ![1, 2, 1, 256, 2]⟩
abbrev S1x2x1x2x1024 : Shape := ⟨5, ![1, 2, 1, 2, 1024]⟩
abbrev S1x4x1x256x1024 : Shape := ⟨5, ![1, 4, 1, 256, 1024]⟩
abbrev S1x1x1x256x2 : Shape := ⟨5, ![1, 1, 1, 256, 2]⟩
abbrev S256x2 : Shape := ⟨2, ![256, 2]⟩
abbrev S1x1x1x2x1024 : Shape := ⟨5, ![1, 1, 1, 2, 1024]⟩
abbrev S2x1024 : Shape := ⟨2, ![2, 1024]⟩
abbrev S256x1 : Shape := ⟨2, ![256, 1]⟩
abbrev S1x1024 : Shape := ⟨2, ![1, 1024]⟩
abbrev S256x1024 : Shape := ⟨2, ![256, 1024]⟩
abbrev S1x1x1x256x1024 : Shape := ⟨5, ![1, 1, 1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x2x8x1024x2, .f32⟩
  | .hbm, ⟨1, _⟩ => ⟨S4x2x8x2x1024, .f32⟩
  | .hbm, ⟨2, _⟩ => ⟨S4x4x8x1024x1024, .f32⟩
  | .local _ .vmem, ⟨0, _⟩ => ⟨S1x2x1x256x2, .f32⟩
  | .local _ .vmem, ⟨1, _⟩ => ⟨S1x2x1x256x2, .f32⟩
  | .local _ .vmem, ⟨2, _⟩ => ⟨S1x2x1x2x1024, .f32⟩
  | .local _ .vmem, ⟨3, _⟩ => ⟨S1x2x1x2x1024, .f32⟩
  | .local _ .vmem, ⟨4, _⟩ => ⟨S1x4x1x256x1024, .f32⟩
  | .local _ .vmem, ⟨5, _⟩ => ⟨S1x4x1x256x1024, .f32⟩
  | _, _ => ⟨S4x2x8x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, arg2.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, arg2.toNat, c0_i32_0.toNat]

abbrev stage0_0 : Fin 2 → Memref sig .tc .vmem S1x2x1x256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  transposes_S4x2x8x1024x2_S4x2x8x2x1024_0_1_2_4_3 : S4x2x8x1024x2.Transposes [0, 1, 2, 4, 3] S4x2x8x2x1024
  inb_S1x2x1x256x2_S1x1x1x256x2_0_0_0_0_0 : ∀ a, (![0, 0, 0, 0, 0] : Fin 5 → Nat) a + S1x1x1x256x2.size a ≤ S1x2x1x256x2.size a
  h_S1x1x1x256x2 : 0 < S1x1x1x256x2.numel
  shapeCasts_S1x1x1x256x2_S256x2 : S1x1x1x256x2.ShapeCasts S256x2
  inb_S1x2x1x2x1024_S1x1x1x2x1024_0_0_0_0_0 : ∀ a, (![0, 0, 0, 0, 0] : Fin 5 → Nat) a + S1x1x1x2x1024.size a ≤ S1x2x1x2x1024.size a
  h_S1x1x1x2x1024 : 0 < S1x1x1x2x1024.numel
  shapeCasts_S1x1x1x2x1024_S2x1024 : S1x1x1x2x1024.ShapeCasts S2x1024
  slices_S256x2_o0_0_S256x1 : S256x2.Slices ![0, 0] S256x1
  slices_S256x2_o0_1_S256x1 : S256x2.Slices ![0, 1] S256x1
  slices_S2x1024_o0_0_S1x1024 : S2x1024.Slices ![0, 0] S1x1024
  slices_S2x1024_o1_0_S1x1024 : S2x1024.Slices ![1, 0] S1x1024
  broadcasts_S256x1_S256x1024 : S256x1.Broadcasts S256x1024
  broadcasts_S1x1024_S256x1024 : S1x1024.Broadcasts S256x1024
  inb_S1x4x1x256x1024_S1x1x1x256x1024_0_0_0_0_0 : ∀ a, (![0, 0, 0, 0, 0] : Fin 5 → Nat) a + S1x1x1x256x1024.size a ≤ S1x4x1x256x1024.size a
  h_S1x1x1x256x1024 : 0 < S1x1x1x256x1024.numel
  shapeCasts_S1x1x1x256x1024_S256x1024 : S1x1x1x256x1024.ShapeCasts S256x1024
  shapeCasts_S256x1024_S1x1x1x256x1024 : S256x1024.ShapeCasts S1x1x1x256x1024
  inb_S1x4x1x256x1024_S1x1x1x256x1024_0_2_0_0_0 : ∀ a, (![0, 2, 0, 0, 0] : Fin 5 → Nat) a + S1x1x1x256x1024.size a ≤ S1x4x1x256x1024.size a
  inb_S1x2x1x256x2_S1x1x1x256x2_0_1_0_0_0 : ∀ a, (![0, 1, 0, 0, 0] : Fin 5 → Nat) a + S1x1x1x256x2.size a ≤ S1x2x1x256x2.size a
  inb_S1x2x1x2x1024_S1x1x1x2x1024_0_1_0_0_0 : ∀ a, (![0, 1, 0, 0, 0] : Fin 5 → Nat) a + S1x1x1x2x1024.size a ≤ S1x2x1x2x1024.size a
  inb_S1x4x1x256x1024_S1x1x1x256x1024_0_1_0_0_0 : ∀ a, (![0, 1, 0, 0, 0] : Fin 5 → Nat) a + S1x1x1x256x1024.size a ≤ S1x4x1x256x1024.size a
  inb_S1x4x1x256x1024_S1x1x1x256x1024_0_3_0_0_0 : ∀ a, (![0, 3, 0, 0, 0] : Fin 5 → Nat) a + S1x1x1x256x1024.size a ≤ S1x4x1x256x1024.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1x256x2.size a ≤ S4x2x8x1024x2.size a
  hwx0_0 : ∀ i : grid0.Coords, EltTy.bits .f32 = 32 ∨ (Rect.block (s := S4x2x8x1024x2) S1x2x1x256x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x1x2x1024.size a ≤ S4x2x8x2x1024.size a
  hwx0_1 : ∀ i : grid0.Coords, EltTy.bits .f32 = 32 ∨ (Rect.block (s := S4x2x8x2x1024) S1x2x1x2x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x1x256x1024.size a ≤ S4x4x8x1024x1024.size a
  hwx0_2 : ∀ i : grid0.Coords, EltTy.bits .f32 = 32 ∨ (Rect.block (s := S4x4x8x1024x1024) S1x4x1x256x1024.size (cc0_transform_2 i) (hinb0_2 i)).WholeWords (EltTy.packing .f32)

variable [Facts₀]

abbrev win0_0 : Pipeline.Window sig grid0 :=
  Pipeline.Window.ofSpec (Memref.whole main_arg0) S1x2x1x256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2x1x2x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4x1x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2x8x1024x2 : Shape := ⟨5, ![4, 2, 8, 1024, 2]⟩
abbrev S4x2x8x1024x1x2 : Shape := ⟨6, ![4, 2, 8, 1024, 1, 2]⟩
abbrev S4x2x8x1x1024x2 : Shape := ⟨6, ![4, 2, 8, 1, 1024, 2]⟩
abbrev S4x2x8x1024x1024x2 : Shape := ⟨6, ![4, 2, 8, 1024, 1024, 2]⟩
abbrev S_ : Shape := ⟨0, ![]⟩
abbrev S4x2x8x1024x1024 : Shape := ⟨5, ![4, 2, 8, 1024, 1024]⟩
abbrev S4x4x8x1024x1024 : Shape := ⟨5, ![4, 4, 8, 1024, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4x2x8x1024x2, .f32⟩
  | .hbm, ⟨1, _⟩ => ⟨S4x2x8x1024x1x2, .f32⟩
  | .hbm, ⟨2, _⟩ => ⟨S4x2x8x1x1024x2, .f32⟩
  | .hbm, ⟨3, _⟩ => ⟨S4x2x8x1024x1024x2, .f32⟩
  | .hbm, ⟨4, _⟩ => ⟨S4x2x8x1024x1024x2, .f32⟩
  | .hbm, ⟨5, _⟩ => ⟨S4x2x8x1024x1024x2, .f32⟩
  | .hbm, ⟨6, _⟩ => ⟨S4x2x8x1024x1024x2, .f32⟩
  | .hbm, ⟨7, _⟩ => ⟨S_, .f32⟩
  | .hbm, ⟨8, _⟩ => ⟨S4x2x8x1024x1024, .f32⟩
  | .hbm, ⟨9, _⟩ => ⟨S_, .f32⟩
  | .hbm, ⟨10, _⟩ => ⟨S4x2x8x1024x1024, .f32⟩
  | .hbm, ⟨11, _⟩ => ⟨S4x2x8x1024x1024, .i1⟩
  | .hbm, ⟨12, _⟩ => ⟨S_, .f32⟩
  | .hbm, ⟨13, _⟩ => ⟨S_, .f32⟩
  | .hbm, ⟨14, _⟩ => ⟨S4x2x8x1024x1024, .f32⟩
  | .hbm, ⟨15, _⟩ => ⟨S4x2x8x1024x1024, .f32⟩
  | .hbm, ⟨16, _⟩ => ⟨S4x2x8x1024x1024, .f32⟩
  | .hbm, ⟨17, _⟩ => ⟨S_, .f32⟩
  | .hbm, ⟨18, _⟩ => ⟨S_, .f32⟩
  | .hbm, ⟨19, _⟩ => ⟨S4x2x8x1024x1024, .f32⟩
  | .hbm, ⟨20, _⟩ => ⟨S4x2x8x1024x1024, .f32⟩
  | .hbm, ⟨21, _⟩ => ⟨S_, .f32⟩
  | .hbm, ⟨22, _⟩ => ⟨S_, .f32⟩
  | .hbm, ⟨23, _⟩ => ⟨S4x2x8x1024x1024, .f32⟩
  | .hbm, ⟨24, _⟩ => ⟨S4x2x8x1024x1024, .f32⟩
  | .hbm, ⟨25, _⟩ => ⟨S_, .f32⟩
  | .hbm, ⟨26, _⟩ => ⟨S4x2x8x1024x1024, .f32⟩
  | .hbm, ⟨27, _⟩ => ⟨S4x2x8x1024x1024, .f32⟩
  | .hbm, ⟨28, _⟩ => ⟨S_, .f32⟩
  | .hbm, ⟨29, _⟩ => ⟨S_, .f32⟩
  | .hbm, ⟨30, _⟩ => ⟨S4x2x8x1024x1024, .f32⟩
  | .hbm, ⟨31, _⟩ => ⟨S4x2x8x1024x1024, .f32⟩
  | .hbm, ⟨32, _⟩ => ⟨S4x4x8x1024x1024, .f32⟩
  | _, _ => ⟨S4x2x8x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_call1_v0 : Ref sig .tc := ⟨.hbm, 18, rfl⟩
abbrev main_call1_v1 : Ref sig .tc := ⟨.hbm, 19, rfl⟩
abbrev main_v11 : Ref sig .tc := ⟨.hbm, 20, rfl⟩
abbrev main_cst_3 : Ref sig .tc := ⟨.hbm, 21, rfl⟩
abbrev main_call2_v0 : Ref sig .tc := ⟨.hbm, 22, rfl⟩
abbrev main_call2_v1 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_call3_v0 : Ref sig .tc := ⟨.hbm, 29, rfl⟩
abbrev main_call3_v1 : Ref sig .tc := ⟨.hbm, 30, rfl⟩
abbrev main_v15 : Ref sig .tc := ⟨.hbm, 31, rfl⟩
abbrev main_v16 : Ref sig .tc := ⟨.hbm, 32, rfl⟩

abbrev nD : Nat := 1
abbrev τ : Topo := Topo.v7x

variable {F : FTy → Type} [FloatOps F]

class Facts₀ : Prop where
  bcast_S4x2x8x1024x2_S4x2x8x1024x1x2_0_1_2_3_5 : S4x2x8x1024x2.BroadcastsInDim S4x2x8x1024x1x2 (![0, 1, 2, 3, 5] : Fin 5 → Fin S4x2x8x1024x1x2.rank)
  bcast_S4x2x8x1024x2_S4x2x8x1x1024x2_0_1_2_4_5 : S4x2x8x1024x2.BroadcastsInDim S4x2x8x1x1024x2 (![0, 1, 2, 4, 5] : Fin 5 → Fin S4x2x8x1x1024x2.rank)
  bcast_S4x2x8x1024x1x2_S4x2x8x1024x1024x2_0_1_2_3_4_5 : S4x2x8x1024x1x2.BroadcastsInDim S4x2x8x1024x1024x2 (![0, 1, 2, 3, 4, 5] : Fin 6 → Fin S4x2x8x1024x1024x2.rank)
  bcast_S4x2x8x1x1024x2_S4x2x8x1024x1024x2_0_1_2_3_4_5 : S4x2x8x1x1024x2.BroadcastsInDim S4x2x8x1024x1024x2 (![0, 1, 2, 3, 4, 5] : Fin 6 → Fin S4x2x8x1024x1024x2.rank)
  reducesTo_S4x2x8x1024x1024x2_S4x2x8x1024x1024_d5 : S4x2x8x1024x1024x2.ReducesTo [5] S4x2x8x1024x1024
  h_S_ : 0 < S_.numel
  bcast_S_S4x2x8x1024x1024 : S_.BroadcastsInDim S4x2x8x1024x1024 (![] : Fin 0 → Fin S4x2x8x1024x1024.rank)
  concatenates_S4x2x8x1024x1024_S4x2x8x1024x1024_S4x4x8x1024x1024_d1 : Shape.Concatenates [S4x2x8x1024x1024, S4x2x8x1024x1024] S4x4x8x1024x1024 1

variable [Facts₀]

class Facts : Prop extends Facts₀ where

variable [Facts]
-- ==== Proof.AdjacencySpec.lean ====
/-
  THE SPECIFICATION. The argument holds, for each of 4 scenes, 2 channels and 8 frames, the plane positions
  (two coordinates) of 1024 agents. The result holds, per scene and frame, four 1024 x 1024 matrices: output
  channels 0 and 1 are the pairwise Euclidean DISTANCES of the agents in input channels 0 and 1, output channels 2
  and 3 are the RECIPROCAL distances of the same two input channels, with the convention that a pair at squared
  distance not above zero (coincident agents, the diagonal) has distance 0 and reciprocal distance 0.

  Everything is read on the extended reals: the squared distance is (x_i - x_j)^2 + (y_i - y_j)^2 with the extended
  reals' own subtraction, product and sum, so the two programs are compared without any finiteness assumption; the
  root and the quotient are the ideal ones; and the two constants 0 and 1 stay the float words that denote them,
  the same words in both programs.
-/
import Idealize.ShloMosaic.PureOps.Ideal
import Idealize.ShloMosaic.PureOps.Ideal.Laws
import Idealize.ShloMosaic.Lib.ValueIdx

noncomputable section

namespace Cert.Adjacency

open Idealize.ShloMosaic Idealize.ShloMosaic.ValueIdx

/-- The positions: scene, channel, frame, agent, plane coordinate. -/
abbrev Pts : Shape := ⟨5, ![4, 2, 8, 1024, 2]⟩
/-- The matrices: scene, output channel, frame, agent i, agent j. -/
abbrev Adj : Shape := ⟨5, ![4, 4, 8, 1024, 1024]⟩

/-- The float word of 0 and of 1, read at the ideal instance. -/
abbrev w0 : EReal := FloatOps.ofBits (F := Ideal) .f32 0x00000000#32
abbrev w1 : EReal := FloatOps.ofBits (F := Ideal) .f32 0x3F800000#32

/-- The squared Euclidean distance of the plane points (rx, ry) and (cx, cy). -/
def sqDist (rx ry cx cy : EReal) : EReal := (rx - cx) * (rx - cx) + (ry - cy) * (ry - cy)

/-- The one-bit mark "the squared distance is above zero". -/
def isPos (s : EReal) : BitVec 1 := FloatOps.cmpf (F := Ideal) (φ := .f32) .ogt s w0

/-- The distance from the squared distance: its root where the mark is set (the root is taken of 1 elsewhere, and
    dropped), 0 elsewhere. -/
def dist (s : EReal) : EReal := Scalar.select (isPos s) (Ideal.sqrt (Scalar.select (isPos s) s w1)) w0

/-- The reciprocal distance: 1 over the distance where the mark is set (1 over 1 elsewhere, and dropped), 0 elsewhere. -/
def invDist (s : EReal) : EReal := Scalar.select (isPos s) (Ideal.div w1 (Scalar.select (isPos s) (dist s) w1)) w0

/-- The squared distance of agents `i` and `j` of scene `b`, input channel `c`, frame `t`. -/
def sqAt (x : Pts.Idx → EReal) (b : Fin 4) (c : Fin 2) (t : Fin 8) (i j : Fin 1024) : EReal :=
  sqDist (x (ix5 b c t i 0)) (x (ix5 b c t i 1)) (x (ix5 b c t j 0)) (x (ix5 b c t j 1))

/-- The input channel an output channel is computed from: 0, 1, 0, 1. -/
def srcCh (ch : Fin 4) : Fin 2 := ⟨ch.val % 2, Nat.mod_lt _ (by decide)⟩

/-- One entry of the result by its coordinates. -/
def adjAt (x : Pts.Idx → EReal) (b : Fin 4) (ch : Fin 4) (t : Fin 8) (i j : Fin 1024) : EReal :=
  if ch.val < 2 then dist (sqAt x b (srcCh ch) t i j) else invDist (sqAt x b (srcCh ch) t i j)

/-- THE RESULT as one function of the positions, index by index. -/
def G (x : Pts.Idx → EReal) : Adj.Idx → EReal := fun i => adjAt x (i 0) (i 1) (i 2) (i 3) (i 4)

theorem G_ix5 (x : Pts.Idx → EReal) (b : Fin 4) (ch : Fin 4) (t : Fin 8) (i j : Fin 1024) :
    G x (ix5 b ch t i j) = adjAt x b ch t i j := rfl

/-- On output channels 0 and 1 an entry is the distance, of the same-numbered input channel. -/
theorem adjAt_dist (x : Pts.Idx → EReal) (b : Fin 4) (c : Fin 2) (ch : Fin 4) (h : ch.val = c.val) (t : Fin 8) (i j : Fin 1024) :
    adjAt x b ch t i j = dist (sqAt x b c t i j) := by
  have hc : srcCh ch = c := Fin.ext (by show ch.val % 2 = c.val; have := c.isLt; omega)
  unfold adjAt; rw [if_pos (by have := c.isLt; omega), hc]

/-- On output channels 2 and 3 an entry is the reciprocal distance, of the input channel two below. -/
theorem adjAt_inv (x : Pts.Idx → EReal) (b : Fin 4) (c : Fin 2) (ch : Fin 4) (h : ch.val = c.val + 2) (t : Fin 8) (i j : Fin 1024) :
    adjAt x b ch t i j = invDist (sqAt x b c t i j) := by
  have hc : srcCh ch = c := Fin.ext (by show ch.val % 2 = c.val; have := c.isLt; omega)
  unfold adjAt; rw [if_neg (by omega), hc]

end Cert.Adjacency

end
-- ==== Proof.ReferenceValue.lean ====
/-
  THE REFERENCE COMPUTES THE SPECIFICATION. The host program forms all coordinate differences
  x[.., i, f] - x[.., j, f] by two broadcasts and a subtraction, squares them, sums over the coordinate axis f
  (two terms, started from the word of 0), and applies the guarded root and the guarded quotient entry by entry; the
  two matrices are then joined along the channel axis. Read index by index: the sum 0 + (d_0^2 + d_1^2) is the squared
  distance because 0 is neutral for the extended reals' sum (no finiteness is used), the host's root and quotient are
  the ideal ones, and an index of the joined array on channel ch reads the distances at channel ch when ch < 2 and
  the reciprocal distances at channel ch - 2 otherwise.
-/
import proofs.«123814_j29042568856291_1_alg».proof.Proof.Gen.ReferenceIdeal.Read
import proofs.«123814_j29042568856291_1_alg».proof.Proof.AdjacencySpec
import Idealize.ShloMosaic.Lib.ValueIdx
import Idealize.ShloMosaic.Lib.Pipeline.Value

noncomputable section

namespace Cert.ReferenceIdeal.RefValue

open Cert.ReferenceIdeal Cert.ReferenceIdeal.Read Cert.Adjacency Idealize.ShloMosaic Idealize.ShloMosaic.ValueIdx

/-- Through the two broadcasts, the left operand of the difference at (b, c, t, i, j, k) is the position of agent i. -/
theorem row_idx (b : Fin 4) (c : Fin 2) (t : Fin 8) (i j : Fin 1024) (k : Fin 2) :
    idx_main_v0 (idx_main_v2 (idx_main_v6 (ix5 b c t i j) k)) = ix5 b c t i k :=
  funext fun a => Fin.ext (by match a with | ⟨0, _⟩ => rfl | ⟨1, _⟩ => rfl | ⟨2, _⟩ => rfl | ⟨3, _⟩ => rfl | ⟨4, _⟩ => rfl)

/-- and the right operand is the position of agent j. -/
theorem col_idx (b : Fin 4) (c : Fin 2) (t : Fin 8) (i j : Fin 1024) (k : Fin 2) :
    idx_main_v1 (idx_main_v3 (idx_main_v6 (ix5 b c t i j) k)) = ix5 b c t j k :=
  funext fun a => Fin.ext (by match a with | ⟨0, _⟩ => rfl | ⟨1, _⟩ => rfl | ⟨2, _⟩ => rfl | ⟨3, _⟩ => rfl | ⟨4, _⟩ => rfl)

/-- The summed squares are the squared distance: 0 + (d_0 * d_0 + d_1 * d_1). -/
theorem sq_eq (x : S4x2x8x1024x2.Idx → EReal) (b : Fin 4) (c : Fin 2) (t : Fin 8) (i j : Fin 1024) :
    val_main_v6 (F := Ideal) x (ix5 b c t i j) = sqAt x b c t i j := by
  rw [val_main_v6_apply, Fin.sum_univ_two]
  simp only [val_main_v5_apply, val_main_v4_apply, val_main_v2_apply, val_main_v3_apply, val_main_v0_apply,
    val_main_v1_apply, val_main_cst_apply, row_idx, col_idx, Ideal.subf_def, Ideal.mulf_def, Ideal.ofBits_def,
    Ideal.ofBits_zero_f32, zero_add]
  rfl

/-- The comparison against the broadcast word of 0 is the specification's mark. -/
theorem pos_eq (x : S4x2x8x1024x2.Idx → EReal) (b : Fin 4) (c : Fin 2) (t : Fin 8) (i j : Fin 1024) :
    val_main_v8 (F := Ideal) x (ix5 b c t i j) = isPos (sqAt x b c t i j) := by
  rw [val_main_v8_apply, val_main_v7_apply, val_main_cst_0_apply, sq_eq]
  rfl

/-- The first matrix holds the distances. -/
theorem dist_eq (x : S4x2x8x1024x2.Idx → EReal) (b : Fin 4) (c : Fin 2) (t : Fin 8) (i j : Fin 1024) :
    val_main_v11 (F := Ideal) x (ix5 b c t i j) = dist (sqAt x b c t i j) := by
  rw [val_main_v11_apply, val_main_v10_apply, val_main_v9_apply, pos_eq, sq_eq,
    val_main_call1_v1_apply, val_main_call1_v0_apply, val_main_cst_2_apply,
    val_main_call0_v1_apply, val_main_call0_v0_apply, val_main_cst_1_apply]
  rfl

/-- The second matrix holds the reciprocal distances. -/
theorem inv_eq (x : S4x2x8x1024x2.Idx → EReal) (b : Fin 4) (c : Fin 2) (t : Fin 8) (i j : Fin 1024) :
    val_main_v15 (F := Ideal) x (ix5 b c t i j) = invDist (sqAt x b c t i j) := by
  rw [val_main_v15_apply, val_main_v14_apply, val_main_v13_apply, val_main_cst_4_apply, val_main_v12_apply,
    dist_eq, pos_eq, val_main_call3_v1_apply, val_main_call3_v0_apply, val_main_cst_5_apply,
    val_main_call2_v1_apply, val_main_call2_v0_apply, val_main_cst_3_apply]
  rfl

/-- THE REFERENCE'S RESULT IS THE SPECIFICATION: the two matrices joined along the channel axis. -/
theorem result_eq (x : S4x2x8x1024x2.Idx → EReal) : val_main_v16 (F := Ideal) x = G x := by
  funext i
  obtain ⟨b, ch, t, p, q, rfl⟩ : ∃ (b : Fin 4) (ch : Fin 4) (t : Fin 8) (p q : Fin 1024), i = ix5 b ch t p q :=
    ⟨i 0, i 1, i 2, i 3, i 4, eq_ix5 i⟩
  rw [G_ix5]
  unfold val_main_v16
  by_cases h : ch.val < 2
  · refine (concatenate_pair_apply_left (t := S4x4x8x1024x1024) (s₁ := S4x2x8x1024x1024) (s₂ := S4x2x8x1024x1024) _ _ _ _
      (ix5 b ch t p q) rfl (ix5 b (⟨ch.val, h⟩ : Fin 2) t p q)
      (fun a => by match a with | ⟨0, _⟩ => rfl | ⟨1, _⟩ => rfl | ⟨2, _⟩ => rfl | ⟨3, _⟩ => rfl | ⟨4, _⟩ => rfl)).trans ?_
    rw [dist_eq, adjAt_dist x b (⟨ch.val, h⟩ : Fin 2) ch rfl]
  · have h2 : ch.val - 2 < 2 := by have := ch.isLt; omega
    refine (concatenate_pair_apply_right (t := S4x4x8x1024x1024) (s₁ := S4x2x8x1024x1024) (s₂ := S4x2x8x1024x1024) _ _ _ _
      (ix5 b ch t p q) rfl rfl (ix5 b (⟨ch.val - 2, h2⟩ : Fin 2) t p q)
      (fun a hne => by
        match a, hne with
        | ⟨0, _⟩, _ => rfl
        | ⟨1, _⟩, hne => exact absurd rfl hne
        | ⟨2, _⟩, _ => rfl
        | ⟨3, _⟩, _ => rfl
        | ⟨4, _⟩, _ => rfl)
      (by show ch.val - 2 + 2 = ch.val; omega)).trans ?_
    rw [inv_eq, adjAt_inv x b (⟨ch.val - 2, h2⟩ : Fin 2) ch (by show ch.val = ch.val - 2 + 2; omega)]

end Cert.ReferenceIdeal.RefValue

end
-- ==== Proof.BodyValue.lean ====
/-
  THE BODY'S ARITHMETIC AT ONE ENTRY. At a grid point the body holds a slab of 256 agents' positions (a row slab,
  [256, 2] per channel) and the transposed positions of all 1024 agents (a column slab, [2, 1024] per channel). It
  slices the two coordinate columns out of the row slab and the two coordinate rows out of the column slab, broadcasts
  each to [256, 1024], and combines them entry by entry. At entry (p, q) the broadcast of coordinate f of the row slab
  reads agent p's coordinate f, whatever q; the broadcast of coordinate f of the column slab reads agent q's, whatever p.
  So the sum of the two squared differences at (p, q) is the squared distance of row agent p and column agent q, and
  the two selected values are the specification's distance and reciprocal distance of it. Both channels run the same
  arithmetic; what is stored is the [256, 1024] result viewed as a [1, 1, 1, 256, 1024] piece.
-/
import proofs.«123814_j29042568856291_1_alg».proof.Proof.Gen.KernelIdeal.Skeleton
import proofs.«123814_j29042568856291_1_alg».proof.Proof.AdjacencySpec
import Idealize.ShloMosaic.Lib.ValueIdx
import Idealize.ShloMosaic.Lib.Pipeline.Value

noncomputable section

namespace Cert.KernelIdeal.BodyValue

open Cert.KernelIdeal Cert.KernelIdeal.Gen Cert.Adjacency Idealize.ShloMosaic Idealize.ShloMosaic.ValueIdx

/-- A loaded row slab [1, 1, 1, 256, 2] viewed [256, 2]: agent p, coordinate f. -/
theorem rowView (v : S1x1x1x256x2.Idx → EReal) (h : S1x1x1x256x2.ShapeCasts S256x2) (p : Fin 256) (f : Fin 2) :
    shapeCast S256x2 v h (ix2 p f) = v (ix5 0 0 0 p f) :=
  shapeCast_apply v h (ix2 p f) (ix5 0 0 0 p f) (by
    rw [Shape.rowMajor_val_five, Shape.rowMajor_val_two]
    show ((((0 : Fin 1).val * 1 + (0 : Fin 1).val) * 1 + (0 : Fin 1).val) * 256 + p.val) * 2 + f.val = p.val * 2 + f.val
    simp)

/-- A loaded column slab [1, 1, 1, 2, 1024] viewed [2, 1024]: coordinate f, agent q. -/
theorem colView (v : S1x1x1x2x1024.Idx → EReal) (h : S1x1x1x2x1024.ShapeCasts S2x1024) (f : Fin 2) (q : Fin 1024) :
    shapeCast S2x1024 v h (ix2 f q) = v (ix5 0 0 0 f q) :=
  shapeCast_apply v h (ix2 f q) (ix5 0 0 0 f q) (by
    rw [Shape.rowMajor_val_five, Shape.rowMajor_val_two]
    show ((((0 : Fin 1).val * 1 + (0 : Fin 1).val) * 1 + (0 : Fin 1).val) * 2 + f.val) * 1024 + q.val = f.val * 1024 + q.val
    simp)

/-- A computed [256, 1024] value viewed as the stored piece [1, 1, 1, 256, 1024]: entry (p, q). -/
theorem pieceView (w : S256x1024.Idx → EReal) (h : S256x1024.ShapeCasts S1x1x1x256x1024) (a0 a1 a2 : Fin 1) (p : Fin 256) (q : Fin 1024) :
    shapeCast S1x1x1x256x1024 w h (ix5 a0 a1 a2 p q) = w (ix2 p q) :=
  shapeCast_apply w h (ix5 a0 a1 a2 p q) (ix2 p q) (by
    rw [Shape.rowMajor_val_five, Shape.rowMajor_val_two]
    have h0 := a0.isLt; have h1 := a1.isLt; have h2 := a2.isLt
    show p.val * 1024 + q.val = (((a0.val * 1 + a1.val) * 1 + a2.val) * 256 + p.val) * 1024 + q.val
    omega)

/-- Coordinate column `f` of the row slab, broadcast along the columns, at (p, q): agent p's coordinate f. -/
theorem rowBroadcast (v : S1x1x1x256x2.Idx → EReal) (k : Nat) (f : Fin 2) (hk : k = f.val)
    (hc : S1x1x1x256x2.ShapeCasts S256x2) (hs : S256x2.Slices ![0, k] S256x1) (hb : S256x1.Broadcasts S256x1024)
    (p : Fin 256) (q : Fin 1024) :
    broadcastTo S256x1024 (extractStridedSlice S256x1 ![0, k] (shapeCast S256x2 v hc) hs) hb (ix2 p q) = v (ix5 0 0 0 p f) := by
  subst hk
  refine (broadcastTo_apply _ hb (ix2 p q) (ix2 p (0 : Fin 1)) (fun a => by match a with | ⟨0, _⟩ => rfl | ⟨1, _⟩ => rfl)).trans ?_
  refine (extractStridedSlice_apply _ _ hs (ix2 p (0 : Fin 1)) (ix2 p f) (fun a => by
    match a with
    | ⟨0, _⟩ => show p.val = 0 + p.val; omega
    | ⟨1, _⟩ => show f.val = f.val + (0 : Fin 1).val; simp)).trans ?_
  exact rowView v hc p f

/-- Coordinate row `f` of the column slab, broadcast along the rows, at (p, q): agent q's coordinate f. -/
theorem colBroadcast (v : S1x1x1x2x1024.Idx → EReal) (k : Nat) (f : Fin 2) (hk : k = f.val)
    (hc : S1x1x1x2x1024.ShapeCasts S2x1024) (hs : S2x1024.Slices ![k, 0] S1x1024) (hb : S1x1024.Broadcasts S256x1024)
    (p : Fin 256) (q : Fin 1024) :
    broadcastTo S256x1024 (extractStridedSlice S1x1024 ![k, 0] (shapeCast S2x1024 v hc) hs) hb (ix2 p q) = v (ix5 0 0 0 f q) := by
  subst hk
  refine (broadcastTo_apply _ hb (ix2 p q) (ix2 (0 : Fin 1) q) (fun a => by match a with | ⟨0, _⟩ => rfl | ⟨1, _⟩ => rfl)).trans ?_
  refine (extractStridedSlice_apply _ _ hs (ix2 (0 : Fin 1) q) (ix2 f q) (fun a => by
    match a with
    | ⟨0, _⟩ => show f.val = f.val + (0 : Fin 1).val; simp
    | ⟨1, _⟩ => show q.val = 0 + q.val; omega)).trans ?_
  exact colView v hc f q

/-- The slabs' squared distance at (p, q). -/
def slabSq (v0 : S1x1x1x256x2.Idx → EReal) (v2 : S1x1x1x2x1024.Idx → EReal) (p : Fin 256) (q : Fin 1024) : EReal :=
  sqDist (v0 (ix5 0 0 0 p 0)) (v0 (ix5 0 0 0 p 1)) (v2 (ix5 0 0 0 0 q)) (v2 (ix5 0 0 0 1 q))

/-- The sum of the two squared differences at (p, q) is the squared distance of row agent p and column agent q. -/
theorem sq_apply (v0 : Vec Ideal S1x1x1x256x2 .f32) (v2 : Vec Ideal S1x1x1x2x1024 .f32) (p : Fin 256) (q : Fin 1024) :
    k0_pay3 v0 v2 (ix2 p q) = slabSq v0 v2 p q := by
  unfold k0_pay3 slabSq sqDist
  simp only [addf, mulf, subf, Ideal.addf_def, Ideal.mulf_def, Ideal.subf_def]
  rw [rowBroadcast v0 0 0 rfl, rowBroadcast v0 1 1 rfl, colBroadcast v2 0 0 rfl, colBroadcast v2 1 1 rfl]

/-- The comparison against the broadcast word of 0 is the specification's mark, -/
theorem pos_apply (v0 : Vec Ideal S1x1x1x256x2 .f32) (v2 : Vec Ideal S1x1x1x2x1024 .f32) (p : Fin 256) (q : Fin 1024) :
    k0_pay4 v0 v2 (ix2 p q) = isPos (slabSq v0 v2 p q) := by
  rw [← sq_apply]; rfl

/-- the first selected value the distance, -/
theorem dist_apply (v0 : Vec Ideal S1x1x1x256x2 .f32) (v2 : Vec Ideal S1x1x1x2x1024 .f32) (p : Fin 256) (q : Fin 1024) :
    k0_pay5 v0 v2 (ix2 p q) = dist (slabSq v0 v2 p q) := by
  rw [← sq_apply]; rfl

/-- and the second the reciprocal distance. -/
theorem inv_apply (v0 : Vec Ideal S1x1x1x256x2 .f32) (v2 : Vec Ideal S1x1x1x2x1024 .f32) (p : Fin 256) (q : Fin 1024) :
    k0_pay6 v0 v2 (ix2 p q) = invDist (slabSq v0 v2 p q) := by
  rw [← sq_apply]; rfl

/-- The second channel's arithmetic is the first channel's, on the second channel's slabs. -/
theorem dist_apply' (v0 : Vec Ideal S1x1x1x256x2 .f32) (v2 : Vec Ideal S1x1x1x2x1024 .f32) (p : Fin 256) (q : Fin 1024) :
    k0_pay11 v0 v2 (ix2 p q) = dist (slabSq v0 v2 p q) := dist_apply v0 v2 p q
theorem inv_apply' (v0 : Vec Ideal S1x1x1x256x2 .f32) (v2 : Vec Ideal S1x1x1x2x1024 .f32) (p : Fin 256) (q : Fin 1024) :
    k0_pay12 v0 v2 (ix2 p q) = invDist (slabSq v0 v2 p q) := inv_apply v0 v2 p q

/-- The four stored pieces at entry (p, q): distance and reciprocal distance of each channel's slabs. -/
theorem store_dist0 (v0 : Vec Ideal S1x1x1x256x2 .f32) (v2 : Vec Ideal S1x1x1x2x1024 .f32) (a0 a1 a2 : Fin 1) (p : Fin 256) (q : Fin 1024) :
    k0_pay7 v0 v2 (ix5 a0 a1 a2 p q) = dist (slabSq v0 v2 p q) := by
  unfold k0_pay7; exact (pieceView _ _ a0 a1 a2 p q).trans (dist_apply v0 v2 p q)
theorem store_inv0 (v0 : Vec Ideal S1x1x1x256x2 .f32) (v2 : Vec Ideal S1x1x1x2x1024 .f32) (a0 a1 a2 : Fin 1) (p : Fin 256) (q : Fin 1024) :
    k0_pay8 (k0_pay6 v0 v2) (ix5 a0 a1 a2 p q) = invDist (slabSq v0 v2 p q) := by
  unfold k0_pay8; exact (pieceView _ _ a0 a1 a2 p q).trans (inv_apply v0 v2 p q)
theorem store_dist1 (v0 : Vec Ideal S1x1x1x256x2 .f32) (v2 : Vec Ideal S1x1x1x2x1024 .f32) (a0 a1 a2 : Fin 1) (p : Fin 256) (q : Fin 1024) :
    k0_pay1 (k0_pay11 v0 v2) (ix5 a0 a1 a2 p q) = dist (slabSq v0 v2 p q) := by
  unfold k0_pay1; exact (pieceView _ _ a0 a1 a2 p q).trans (dist_apply' v0 v2 p q)
theorem store_inv1 (v0 : Vec Ideal S1x1x1x256x2 .f32) (v2 : Vec Ideal S1x1x1x2x1024 .f32) (a0 a1 a2 : Fin 1) (p : Fin 256) (q : Fin 1024) :
    k0_pay2 (k0_pay12 v0 v2) (ix5 a0 a1 a2 p q) = invDist (slabSq v0 v2 p q) := by
  unfold k0_pay2; exact (pieceView _ _ a0 a1 a2 p q).trans (inv_apply' v0 v2 p q)

end Cert.KernelIdeal.BodyValue

end
-- ==== Proof.BlockValue.lean ====
/-
  THE BLOCK THE BODY LEAVES. The output block [1, 4, 1, 256, 1024] is written as four pieces, one per output
  channel slot: slots 0 and 2 from the slabs of input channel 0, slots 1 and 3 from the slabs of input channel 1, the
  first of each pair the distances and the second the reciprocal distances. The staged row block is [1, 2, 1, 256, 2]
  and the staged column block [1, 2, 1, 2, 1024]; a channel's slab is the block read at that channel. So the block is
  ONE function of the two staged blocks, entry by entry: at (slot, p, q) the distance or reciprocal distance, by the
  slot's half, of row agent p and column agent q of input channel slot mod 2. The four pieces tile the block, so
  what the stores leave is that function everywhere.
-/
import proofs.«123814_j29042568856291_1_alg».proof.Proof.Gen.KernelIdeal.Frame
import proofs.«123814_j29042568856291_1_alg».proof.Proof.BodyValue
import proofs.«123814_j29042568856291_1_alg».proof.Proof.AdjacencySpec
import Idealize.ShloMosaic.Lib.ValueIdx
import Idealize.ShloMosaic.Lib.Pipeline.Value

noncomputable section

namespace Cert.KernelIdeal.BlockValue

open Cert.KernelIdeal Cert.KernelIdeal.Gen Cert.KernelIdeal.BodyValue Cert.Adjacency Idealize.ShloMosaic Idealize.ShloMosaic.ValueIdx

/-- The squared distance of row agent p and column agent q of channel c, from the staged blocks. -/
def blockSq (X0 : S1x2x1x256x2.Idx → EReal) (X1 : S1x2x1x2x1024.Idx → EReal) (c : Fin 2) (p : Fin 256) (q : Fin 1024) : EReal :=
  sqDist (X0 (ix5 0 c 0 p 0)) (X0 (ix5 0 c 0 p 1)) (X1 (ix5 0 c 0 0 q)) (X1 (ix5 0 c 0 1 q))

/-- One entry of the block by its coordinates. -/
def blockAt (X0 : S1x2x1x256x2.Idx → EReal) (X1 : S1x2x1x2x1024.Idx → EReal) (ch : Fin 4) (p : Fin 256) (q : Fin 1024) : EReal :=
  if ch.val < 2 then dist (blockSq X0 X1 (srcCh ch) p q) else invDist (blockSq X0 X1 (srcCh ch) p q)

/-- The block as one function of the staged blocks. -/
def blockG (X0 : S1x2x1x256x2.Idx → EReal) (X1 : S1x2x1x2x1024.Idx → EReal) : S1x4x1x256x1024.Idx → EReal :=
  fun y => blockAt X0 X1 (y 1) (y 3) (y 4)

theorem blockAt_dist (X0 : S1x2x1x256x2.Idx → EReal) (X1 : S1x2x1x2x1024.Idx → EReal) (c : Fin 2) (ch : Fin 4) (h : ch.val = c.val)
    (p : Fin 256) (q : Fin 1024) : blockAt X0 X1 ch p q = dist (blockSq X0 X1 c p q) := by
  have hc : srcCh ch = c := Fin.ext (by show ch.val % 2 = c.val; have := c.isLt; omega)
  unfold blockAt; rw [if_pos (by have := c.isLt; omega), hc]

theorem blockAt_inv (X0 : S1x2x1x256x2.Idx → EReal) (X1 : S1x2x1x2x1024.Idx → EReal) (c : Fin 2) (ch : Fin 4) (h : ch.val = c.val + 2)
    (p : Fin 256) (q : Fin 1024) : blockAt X0 X1 ch p q = invDist (blockSq X0 X1 c p q) := by
  have hc : srcCh ch = c := Fin.ext (by show ch.val % 2 = c.val; have := c.isLt; omega)
  unfold blockAt; rw [if_neg (by omega), hc]

/-- The block function at an index known by its coordinates. -/
theorem blockG_at (X0 : S1x2x1x256x2.Idx → EReal) (X1 : S1x2x1x2x1024.Idx → EReal) (y : S1x4x1x256x1024.Idx)
    (ch : Fin 4) (p : Fin 256) (q : Fin 1024) (h1 : (y 1).val = ch.val) (h3 : (y 3).val = p.val) (h4 : (y 4).val = q.val) :
    blockG X0 X1 y = blockAt X0 X1 ch p q := by
  have e1 : (y 1 : Fin 4) = ch := Fin.ext h1
  have e3 : (y 3 : Fin 256) = p := Fin.ext h3
  have e4 : (y 4 : Fin 1024) = q := Fin.ext h4
  show blockAt X0 X1 (y 1) (y 3) (y 4) = _
  rw [e1, e3, e4]

/-- Channel c's row slab, loaded from the staged row block: agent p, coordinate f. -/
theorem loadRow (X0 : Vec Ideal S1x2x1x256x2 .f32) (k : Nat) (c : Fin 2) (hk : k = c.val)
    (inb : ∀ a, (![0, k, 0, 0, 0] : Fin 5 → Nat) a + S1x1x1x256x2.size a ≤ S1x2x1x256x2.size a) (p : Fin 256) (f : Fin 2) :
    View.ld X0 (Rect.unit (s := S1x2x1x256x2) ![0, k, 0, 0, 0] S1x1x1x256x2.size inb) (ix5 0 0 0 p f) = X0 (ix5 0 c 0 p f) := by
  subst hk
  refine congrArg X0 (funext fun a => Fin.ext ?_)
  match a with
  | ⟨0, _⟩ => show 0 + 1 * (0 : Fin 1).val = (0 : Fin 1).val; simp
  | ⟨1, _⟩ => show c.val + 1 * (0 : Fin 1).val = c.val; simp
  | ⟨2, _⟩ => show 0 + 1 * (0 : Fin 1).val = (0 : Fin 1).val; simp
  | ⟨3, _⟩ => show 0 + 1 * p.val = p.val; omega
  | ⟨4, _⟩ => show 0 + 1 * f.val = f.val; omega

/-- Channel c's column slab, loaded from the staged column block: coordinate f, agent q. -/
theorem loadCol (X1 : Vec Ideal S1x2x1x2x1024 .f32) (k : Nat) (c : Fin 2) (hk : k = c.val)
    (inb : ∀ a, (![0, k, 0, 0, 0] : Fin 5 → Nat) a + S1x1x1x2x1024.size a ≤ S1x2x1x2x1024.size a) (f : Fin 2) (q : Fin 1024) :
    View.ld X1 (Rect.unit (s := S1x2x1x2x1024) ![0, k, 0, 0, 0] S1x1x1x2x1024.size inb) (ix5 0 0 0 f q) = X1 (ix5 0 c 0 f q) := by
  subst hk
  refine congrArg X1 (funext fun a => Fin.ext ?_)
  match a with
  | ⟨0, _⟩ => show 0 + 1 * (0 : Fin 1).val = (0 : Fin 1).val; simp
  | ⟨1, _⟩ => show c.val + 1 * (0 : Fin 1).val = c.val; simp
  | ⟨2, _⟩ => show 0 + 1 * (0 : Fin 1).val = (0 : Fin 1).val; simp
  | ⟨3, _⟩ => show 0 + 1 * f.val = f.val; omega
  | ⟨4, _⟩ => show 0 + 1 * q.val = q.val; omega

/-- The two channels' slabs give the staged blocks' squared distances. -/
theorem slab0 (X0 : Vec Ideal S1x2x1x256x2 .f32) (X1 : Vec Ideal S1x2x1x2x1024 .f32) (p : Fin 256) (q : Fin 1024) :
    slabSq (View.ld X0 r0_0) (View.ld X1 r0_1) p q = blockSq X0 X1 0 p q := by
  unfold slabSq blockSq
  rw [loadRow X0 0 0 rfl, loadRow X0 0 0 rfl, loadCol X1 0 0 rfl, loadCol X1 0 0 rfl]

theorem slab1 (X0 : Vec Ideal S1x2x1x256x2 .f32) (X1 : Vec Ideal S1x2x1x2x1024 .f32) (p : Fin 256) (q : Fin 1024) :
    slabSq (View.ld X0 r0_4) (View.ld X1 r0_5) p q = blockSq X0 X1 1 p q := by
  unfold slabSq blockSq
  rw [loadRow X0 1 1 rfl, loadRow X0 1 1 rfl, loadCol X1 1 1 rfl, loadCol X1 1 1 rfl]

/-- Each stored piece, at its own index, is the block function at the index under it. Slot 0: channel 0's distances. -/
theorem piece_slot0 (X0 : Vec Ideal S1x2x1x256x2 .f32) (X1 : Vec Ideal S1x2x1x2x1024 .f32) (x : S1x1x1x256x1024.Idx) :
    k0_pay7 (View.ld X0 r0_0) (View.ld X1 r0_1) x = blockG X0 X1 (r0_2.emb x) := by
  obtain ⟨a0, a1, a2, p, q, rfl⟩ : ∃ (a0 a1 a2 : Fin 1) (p : Fin 256) (q : Fin 1024), x = ix5 a0 a1 a2 p q :=
    ⟨x 0, x 1, x 2, x 3, x 4, eq_ix5 x⟩
  have h1 := a1.isLt
  rw [store_dist0, slab0, blockG_at X0 X1 _ 0 p q (by show 0 + 1 * a1.val = (0 : Fin 4).val; simp)
    (by show 0 + 1 * p.val = p.val; omega) (by show 0 + 1 * q.val = q.val; omega), blockAt_dist X0 X1 0 0 rfl]

/-- Slot 2: channel 0's reciprocal distances. -/
theorem piece_slot2 (X0 : Vec Ideal S1x2x1x256x2 .f32) (X1 : Vec Ideal S1x2x1x2x1024 .f32) (x : S1x1x1x256x1024.Idx) :
    k0_pay8 (k0_pay6 (View.ld X0 r0_0) (View.ld X1 r0_1)) x = blockG X0 X1 (r0_3.emb x) := by
  obtain ⟨a0, a1, a2, p, q, rfl⟩ : ∃ (a0 a1 a2 : Fin 1) (p : Fin 256) (q : Fin 1024), x = ix5 a0 a1 a2 p q :=
    ⟨x 0, x 1, x 2, x 3, x 4, eq_ix5 x⟩
  have h1 := a1.isLt
  rw [store_inv0, slab0, blockG_at X0 X1 _ 2 p q (by show 2 + 1 * a1.val = (2 : Fin 4).val; simp)
    (by show 0 + 1 * p.val = p.val; omega) (by show 0 + 1 * q.val = q.val; omega), blockAt_inv X0 X1 0 2 rfl]

/-- Slot 1: channel 1's distances. -/
theorem piece_slot1 (X0 : Vec Ideal S1x2x1x256x2 .f32) (X1 : Vec Ideal S1x2x1x2x1024 .f32) (x : S1x1x1x256x1024.Idx) :
    k0_pay1 (k0_pay11 (View.ld X0 r0_4) (View.ld X1 r0_5)) x = blockG X0 X1 (r0_6.emb x) := by
  obtain ⟨a0, a1, a2, p, q, rfl⟩ : ∃ (a0 a1 a2 : Fin 1) (p : Fin 256) (q : Fin 1024), x = ix5 a0 a1 a2 p q :=
    ⟨x 0, x 1, x 2, x 3, x 4, eq_ix5 x⟩
  have h1 := a1.isLt
  rw [store_dist1, slab1, blockG_at X0 X1 _ 1 p q (by show 1 + 1 * a1.val = (1 : Fin 4).val; simp)
    (by show 0 + 1 * p.val = p.val; omega) (by show 0 + 1 * q.val = q.val; omega), blockAt_dist X0 X1 1 1 rfl]

/-- Slot 3: channel 1's reciprocal distances. -/
theorem piece_slot3 (X0 : Vec Ideal S1x2x1x256x2 .f32) (X1 : Vec Ideal S1x2x1x2x1024 .f32) (x : S1x1x1x256x1024.Idx) :
    k0_pay2 (k0_pay12 (View.ld X0 r0_4) (View.ld X1 r0_5)) x = blockG X0 X1 (r0_7.emb x) := by
  obtain ⟨a0, a1, a2, p, q, rfl⟩ : ∃ (a0 a1 a2 : Fin 1) (p : Fin 256) (q : Fin 1024), x = ix5 a0 a1 a2 p q :=
    ⟨x 0, x 1, x 2, x 3, x 4, eq_ix5 x⟩
  have h1 := a1.isLt
  rw [store_inv1, slab1, blockG_at X0 X1 _ 3 p q (by show 3 + 1 * a1.val = (3 : Fin 4).val; simp)
    (by show 0 + 1 * p.val = p.val; omega) (by show 0 + 1 * q.val = q.val; omega), blockAt_inv X0 X1 1 3 rfl]

/-- WHAT THE BODY LEAVES in the output block is the block function of the staged blocks: every piece agrees with it and
    the pieces cover the block. -/
theorem out_eq (X0 : Vec Ideal S1x2x1x256x2 .f32) (X1 : Vec Ideal S1x2x1x2x1024 .f32) (y : S1x4x1x256x1024.Idx) :
    out0_2 (F := Ideal) X0 X1 y = blockG X0 X1 y := by
  unfold out0_2
  refine View.canon_apply_of_pieces (Val := Elt Ideal) (blockG X0 X1) _ ?_ y (cover0_2 _ _ _ _ y)
  intro pc hpc x
  rcases List.mem_cons.mp hpc with rfl | hpc
  · exact piece_slot3 X0 X1 x
  rcases List.mem_cons.mp hpc with rfl | hpc
  · exact piece_slot1 X0 X1 x
  rcases List.mem_cons.mp hpc with rfl | hpc
  · exact piece_slot2 X0 X1 x
  rcases List.mem_cons.mp hpc with rfl | hpc
  · exact piece_slot0 X0 X1 x
  nomatch hpc

end Cert.KernelIdeal.BlockValue

end
-- ==== Proof.ArrayValue.lean ====
/-
  FROM BLOCKS TO THE ARRAY. The grid is scene x frame x row tile (4 x 8 x 4 points). At a point the row window
  stages rows [256 n, 256 n + 256) of the positions of that scene and frame, both channels; the column window stages
  the whole transposed positions of that scene and frame (the host transposes the last two axes before the call, so
  the column block at (channel, coordinate f, agent q) is the position array at (channel, agent q, coordinate f)); the
  output window writes back rows [256 n, 256 n + 256) of all four output channels of that scene and frame. Hence what
  a point writes back is its block of the specification read through the window, and since the output blocks tile the
  result array (row r of scene b, frame t is in the block of the point (b, t, r / 256)) the array ends holding the
  specification of the positions.
-/
import proofs.«123814_j29042568856291_1_alg».proof.Proof.Gen.KernelIdeal.Value
import proofs.«123814_j29042568856291_1_alg».proof.Proof.BlockValue
import proofs.«123814_j29042568856291_1_alg».proof.Proof.AdjacencySpec
import Idealize.ShloMosaic.Lib.ValueIdx
import Idealize.ShloMosaic.Lib.Pipeline.Value
import Idealize.ShloMosaic.Lib.StableHlo.Run

noncomputable section

namespace Cert.KernelIdeal.ArrayValue

open Cert.KernelIdeal Cert.KernelIdeal.Gen Cert.KernelIdeal.BlockValue Cert.Adjacency
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification at an index known by its coordinates. -/
theorem G_at (A : Pts.Idx → EReal) (i : S4x4x8x1024x1024.Idx) (b : Fin 4) (ch : Fin 4) (tt : Fin 8) (r q : Fin 1024)
    (h0 : (i 0).val = b.val) (h1 : (i 1).val = ch.val) (h2 : (i 2).val = tt.val) (h3 : (i 3).val = r.val) (h4 : (i 4).val = q.val) :
    G A i = adjAt A b ch tt r q := by
  have e0 : (i 0 : Fin 4) = b := Fin.ext h0
  have e1 : (i 1 : Fin 4) = ch := Fin.ext h1
  have e2 : (i 2 : Fin 8) = tt := Fin.ext h2
  have e3 : (i 3 : Fin 1024) = r := Fin.ext h3
  have e4 : (i 4 : Fin 1024) = q := Fin.ext h4
  show adjAt A (i 0) (i 1) (i 2) (i 3) (i 4) = _
  rw [e0, e1, e2, e3, e4]

/-- A block whose row part is rows [256 n, 256 n + 256) of scene b, frame tt of the positions, and whose column part is
    all agents of that scene and frame, computes rows [256 n, 256 n + 256) of the specification. -/
theorem blockAt_eq (A : Pts.Idx → EReal) (X0 : S1x2x1x256x2.Idx → EReal) (X1 : S1x2x1x2x1024.Idx → EReal)
    (b : Fin 4) (tt : Fin 8) (n : Fin 4)
    (hrow : ∀ (c : Fin 2) (p : Fin 256) (f : Fin 2), X0 (ix5 0 c 0 p f) = A (ix5 b c tt ⟨n.val * 256 + p.val, by omega⟩ f))
    (hcol : ∀ (c : Fin 2) (f : Fin 2) (q : Fin 1024), X1 (ix5 0 c 0 f q) = A (ix5 b c tt q f))
    (ch : Fin 4) (p : Fin 256) (q : Fin 1024) :
    blockAt X0 X1 ch p q = adjAt A b ch tt ⟨n.val * 256 + p.val, by omega⟩ q := by
  unfold blockAt adjAt blockSq sqAt
  rw [hrow, hrow, hcol, hcol]

/-- The printed index maps, decided over the 128 grid points: the row window moves with the output window (channel
    and coordinate axes whole), the column window follows it on scene and frame only, and the output window's block
    indices are (scene, 0, frame, row tile, 0). -/
theorem idx_facts : ∀ t : Fin cfg0.N,
    win0_0.index t (0 : Fin 5) = win0_2.index t (0 : Fin 5) ∧ win0_0.index t (1 : Fin 5) = 0
    ∧ win0_0.index t (2 : Fin 5) = win0_2.index t (2 : Fin 5) ∧ win0_0.index t (3 : Fin 5) = win0_2.index t (3 : Fin 5)
    ∧ win0_0.index t (4 : Fin 5) = 0
    ∧ win0_1.index t (0 : Fin 5) = win0_2.index t (0 : Fin 5) ∧ win0_1.index t (1 : Fin 5) = 0
    ∧ win0_1.index t (2 : Fin 5) = win0_2.index t (2 : Fin 5) ∧ win0_1.index t (3 : Fin 5) = 0
    ∧ win0_1.index t (4 : Fin 5) = 0
    ∧ win0_2.index t (0 : Fin 5) < 4 ∧ win0_2.index t (1 : Fin 5) = 0 ∧ win0_2.index t (2 : Fin 5) < 8
    ∧ win0_2.index t (3 : Fin 5) < 4 ∧ win0_2.index t (4 : Fin 5) = 0 :=
  (by decide +kernel : ∀ t : Fin grid0.N, _)

/-- Every (scene, frame, row tile) is some point's output block. -/
theorem idx_onto : ∀ (q0 : Fin 4) (q2 : Fin 8) (q3 : Fin 4), ∃ t : Fin cfg0.N, win0_2.index t = ![q0.val, 0, q2.val, q3.val, 0] :=
  (by decide +kernel : ∀ (q0 : Fin 4) (q2 : Fin 8) (q3 : Fin 4), ∃ t : Fin grid0.N, win0_2.index t = ![q0.val, 0, q2.val, q3.val, 0])

/-- The column window's array, as the region finds it, is the positions with the last two axes exchanged. -/
theorem V_cols (c : Dev nD) :
    (V m c main_v0 : S4x2x8x2x1024.Idx → EReal)
      = transpose S4x2x8x2x1024 [0, 1, 2, 4, 3] (m ((c : Thread nD τ).loc main_arg0)) transposes_S4x2x8x1024x2_S4x2x8x2x1024_0_1_2_4_3 := by
  dsimp only [Gen.V, Gen.hostOps0]; after_results

/-- WHAT POINT `t` WRITES BACK is its block of the specification of the positions. -/
theorem flushed_eq (c : Dev nD) (t : Fin cfg0.N) :
    (dats m 0 c).flushed 2 t = ((cfg0.win 2).blk t).view.read (Elt Ideal) (G (m ((c : Thread nD τ).loc main_arg0))) := by
  rw [Value.flushed2]
  obtain ⟨r0, r1, r2, r3, r4, c0, c1, c2, c3, c4, o0, o1, o2, o3, o4⟩ := idx_facts t
  obtain ⟨b, hb⟩ : ∃ b : Fin 4, b.val = win0_2.index t (0 : Fin 5) := ⟨⟨_, o0⟩, rfl⟩
  obtain ⟨tt, htt⟩ : ∃ tt : Fin 8, tt.val = win0_2.index t (2 : Fin 5) := ⟨⟨_, o2⟩, rfl⟩
  obtain ⟨n, hn⟩ : ∃ n : Fin 4, n.val = win0_2.index t (3 : Fin 5) := ⟨⟨_, o3⟩, rfl⟩
  have hrow : ∀ (cc : Fin 2) (p : Fin 256) (f : Fin 2), iblk m c 0 t (ix5 0 cc 0 p f : S1x2x1x256x2.Idx)
      = m ((c : Thread nD τ).loc main_arg0) (ix5 b cc tt ⟨n.val * 256 + p.val, by omega⟩ f) := by
    intro cc p f
    show V m c main_arg0 (((cfg0.win 0).blk t).view.emb (ix5 0 cc 0 p f : S1x2x1x256x2.Idx)) = _
    rw [V_main_arg0]
    refine congrArg _ (funext fun a => Fin.ext ?_)
    match a with
    | ⟨0, _⟩ => show win0_0.index t (0 : Fin 5) * 1 + 1 * (0 : Fin 1).val = b.val; simp; omega
    | ⟨1, _⟩ => show win0_0.index t (1 : Fin 5) * 2 + 1 * cc.val = cc.val; omega
    | ⟨2, _⟩ => show win0_0.index t (2 : Fin 5) * 1 + 1 * (0 : Fin 1).val = tt.val; simp; omega
    | ⟨3, _⟩ => show win0_0.index t (3 : Fin 5) * 256 + 1 * p.val = n.val * 256 + p.val; omega
    | ⟨4, _⟩ => show win0_0.index t (4 : Fin 5) * 2 + 1 * f.val = f.val; omega
  have hcol : ∀ (cc : Fin 2) (f : Fin 2) (q : Fin 1024), iblk m c 1 t (ix5 0 cc 0 f q : S1x2x1x2x1024.Idx)
      = m ((c : Thread nD τ).loc main_arg0) (ix5 b cc tt q f) := by
    intro cc f q
    show V m c main_v0 (((cfg0.win 1).blk t).view.emb (ix5 0 cc 0 f q : S1x2x1x2x1024.Idx)) = _
    rw [V_cols]
    refine transpose_apply _ _ _ _ (ix5 b cc tt q f) (fun bb => ?_)
    match bb with
    | ⟨0, _⟩ => show b.val = win0_1.index t (0 : Fin 5) * 1 + 1 * (0 : Fin 1).val; simp; omega
    | ⟨1, _⟩ => show cc.val = win0_1.index t (1 : Fin 5) * 2 + 1 * cc.val; omega
    | ⟨2, _⟩ => show tt.val = win0_1.index t (2 : Fin 5) * 1 + 1 * (0 : Fin 1).val; simp; omega
    | ⟨3, _⟩ => show f.val = win0_1.index t (3 : Fin 5) * 2 + 1 * f.val; omega
    | ⟨4, _⟩ => show q.val = win0_1.index t (4 : Fin 5) * 1024 + 1 * q.val; omega
  funext y
  show out0_2 (F := Ideal) (iblk m c 0 t) (iblk m c 1 t) y
    = G (m ((c : Thread nD τ).loc main_arg0)) (((cfg0.win 2).blk t).view.emb y)
  have hy0 : (y 0).val < 1 := (y 0).isLt
  have hy2 : (y 2).val < 1 := (y 2).isLt
  have hy3 : (y 3).val < 256 := (y 3).isLt
  obtain ⟨ch, hch⟩ : ∃ ch : Fin 4, (y 1).val = ch.val := ⟨⟨(y 1).val, (y 1).isLt⟩, rfl⟩
  obtain ⟨p, hp⟩ : ∃ p : Fin 256, (y 3).val = p.val := ⟨⟨(y 3).val, (y 3).isLt⟩, rfl⟩
  obtain ⟨q, hq⟩ : ∃ q : Fin 1024, (y 4).val = q.val := ⟨⟨(y 4).val, (y 4).isLt⟩, rfl⟩
  rw [out_eq, blockG_at _ _ y ch p q hch hp hq,
    blockAt_eq (m ((c : Thread nD τ).loc main_arg0)) _ _ b tt n hrow hcol]
  refine (G_at _ _ b ch tt ⟨n.val * 256 + p.val, by omega⟩ q ?_ ?_ ?_ ?_ ?_).symm
  · show win0_2.index t (0 : Fin 5) * 1 + 1 * (y 0).val = b.val; omega
  · show win0_2.index t (1 : Fin 5) * 4 + 1 * (y 1).val = ch.val; omega
  · show win0_2.index t (2 : Fin 5) * 1 + 1 * (y 2).val = tt.val; omega
  · show win0_2.index t (3 : Fin 5) * 256 + 1 * (y 3).val = n.val * 256 + p.val; omega
  · show win0_2.index t (4 : Fin 5) * 1024 + 1 * (y 4).val = q.val; omega

/-- An index of the result array is in point `t`'s block iff each coordinate is in the block's range on its axis. -/
theorem mem_blk (t : Fin cfg0.N) (i : S4x4x8x1024x1024.Idx) :
    i ∈ ((cfg0.win 2).blk t).view.set ↔ ∀ a : Fin 5, win0_2.index t a * S1x4x1x256x1024.size a ≤ (i a).val
      ∧ (i a).val < win0_2.index t a * S1x4x1x256x1024.size a + S1x4x1x256x1024.size a := by
  show i ∈ ((View.whole main_v1).slice (win0_2.rect t)).set ↔ _
  rw [View.set_slice_whole, Rect.mem_set_unit]
  exact Iff.rfl

/-- The output blocks cover the result array: row r of scene b, frame tt lies in the block of the point (b, tt, r / 256). -/
theorem cover (i : S4x4x8x1024x1024.Idx) :
    ∃ t : Fin cfg0.N, (cfg0.win 2).flush t = true ∧ i ∈ ((cfg0.win 2).blk t).view.set := by
  have h0 : (i 0).val < 4 := (i 0).isLt
  have h1 : (i 1).val < 4 := (i 1).isLt
  have h2 : (i 2).val < 8 := (i 2).isLt
  have h3 : (i 3).val < 1024 := (i 3).isLt
  have h4 : (i 4).val < 1024 := (i 4).isLt
  obtain ⟨t, ht⟩ := idx_onto ⟨(i 0).val, h0⟩ ⟨(i 2).val, h2⟩ ⟨(i 3).val / 256, by omega⟩
  have q0 : win0_2.index t (0 : Fin 5) = (i 0).val := congrFun ht 0
  have q1 : win0_2.index t (1 : Fin 5) = 0 := congrFun ht 1
  have q2 : win0_2.index t (2 : Fin 5) = (i 2).val := congrFun ht 2
  have q3 : win0_2.index t (3 : Fin 5) = (i 3).val / 256 := congrFun ht 3
  have q4 : win0_2.index t (4 : Fin 5) = 0 := congrFun ht 4
  refine ⟨t, flush0_2 t, ?_⟩
  rw [mem_blk]
  intro a
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 4 ≤ (i 1).val ∧ (i 1).val < win0_2.index t (1 : Fin 5) * 4 + 4; omega
  | ⟨2, _⟩ => show win0_2.index t (2 : Fin 5) * 1 ≤ (i 2).val ∧ (i 2).val < win0_2.index t (2 : Fin 5) * 1 + 1; omega
  | ⟨3, _⟩ => show win0_2.index t (3 : Fin 5) * 256 ≤ (i 3).val ∧ (i 3).val < win0_2.index t (3 : Fin 5) * 256 + 256; omega
  | ⟨4, _⟩ => show win0_2.index t (4 : Fin 5) * 1024 ≤ (i 4).val ∧ (i 4).val < win0_2.index t (4 : Fin 5) * 1024 + 1024; omega

/-- THE RESULT ARRAY after the run is the specification of the positions. -/
theorem final (c : Dev nD) : (dats m 0 c).arrAt 2 cfg0.N = G (m ((c : Thread nD τ).loc main_arg0)) :=
  (dats m 0 c).arrAt_eq_of_cover 2 (G (m ((c : Thread nD τ).loc main_arg0))) (fun t _ => flushed_eq m c t) cover

/-- The kernel's run, read: every weakly fair execution terminates with the result array at the specification of
    the positions and the positions unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrayValue

end
-- ==== Proof.lean ====
/-
  PAIRWISE DISTANCES AND RECIPROCAL DISTANCES OF AGENTS, tiled kernel against the whole-array formula.

  Both programs take the positions x[scene, channel, frame, agent, coordinate] (4 x 2 x 8 x 1024 x 2) and return, per scene
  and frame, four 1024 x 1024 matrices: for channel c the distance matrix
      A_c[i, j] = sqrt((x_i - x_j)^2 + (y_i - y_j)^2)   where that squared distance is above 0, and 0 elsewhere,
  in output channels 0 and 1, and its entrywise reciprocal 1 / A_c[i, j] (again 0 where the squared distance is not above 0) in
  output channels 2 and 3. The reference forms all coordinate differences at once, squares, sums over the coordinate axis and
  joins the two matrices along the channel axis. The kernel walks a grid of scene x frame x row tile: a point holds 256 row
  agents and, transposed beforehand on the host, all 1024 column agents, forms the outer differences by two broadcasts, and
  writes the four channel slots of its 256 x 1024 tile.

  On the extended reals the two are the same function of the positions, entry by entry (Proof/AdjacencySpec.lean states
  it): the reference's sum over the two coordinates, started from 0, is the kernel's sum of two squares because 0 is neutral
  for the extended reals' addition; root, quotient, comparison and selection are the same ideal operations on both sides;
  the constants are the same float words of 0 and 1. No algebraic law that needs finite operands is used, so the
  precondition is never opened. Proof/ReferenceValue.lean reads the reference's run as the specification,
  Proof/BodyValue.lean the kernel body's arithmetic at one entry, Proof/BlockValue.lean the block a grid point leaves as
  one function of its staged blocks, and Proof/ArrayValue.lean tiles the blocks into the result array. The idealization
  rewrote nothing, so that conjunct is trivial; the three frames are the generated ones (the reference's is its generated
  run with the result dropped).
-/
import proofs.«123814_j29042568856291_1_alg».proof.Defs
import proofs.«123814_j29042568856291_1_alg».proof.Proof.Gen.Kernel
import proofs.«123814_j29042568856291_1_alg».proof.Proof.Gen.Kernel.Skeleton
import proofs.«123814_j29042568856291_1_alg».proof.Proof.Gen.Kernel.Launch
import proofs.«123814_j29042568856291_1_alg».proof.Proof.Gen.Kernel.Points
import proofs.«123814_j29042568856291_1_alg».proof.Proof.Gen.Kernel.Frame
import proofs.«123814_j29042568856291_1_alg».proof.Proof.Gen.KernelIdeal
import proofs.«123814_j29042568856291_1_alg».proof.Proof.Gen.KernelIdeal.Skeleton
import proofs.«123814_j29042568856291_1_alg».proof.Proof.Gen.KernelIdeal.Launch
import proofs.«123814_j29042568856291_1_alg».proof.Proof.Gen.KernelIdeal.Points
import proofs.«123814_j29042568856291_1_alg».proof.Proof.Gen.KernelIdeal.Frame
import proofs.«123814_j29042568856291_1_alg».proof.Proof.Gen.ReferenceIdeal
import proofs.«123814_j29042568856291_1_alg».proof.Proof.Gen.Pre_finite_inputs
import proofs.«123814_j29042568856291_1_alg».proof.Proof.Gen.KernelIdeal.Value
import proofs.«123814_j29042568856291_1_alg».proof.Proof.Gen.ReferenceIdeal.Run
import proofs.«123814_j29042568856291_1_alg».proof.Proof.Gen.ReferenceIdeal.Read
import proofs.«123814_j29042568856291_1_alg».proof.Proof.AdjacencySpec
import proofs.«123814_j29042568856291_1_alg».proof.Proof.ReferenceValue
import proofs.«123814_j29042568856291_1_alg».proof.Proof.ArrayValue
import Idealize.ShloMosaic.Adequacy
import Idealize.ShloMosaic.Init

noncomputable section

namespace Cert.Proof

open Idealize.ShloMosaic Idealize.ShloMosaic.TcCoe Idealize.SL.Sem

/-- The word-level kernel runs, faults nowhere and leaves the positions as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the positions, both idealized programs end with the specification of the positions in
    their result arrays: the kernel by its tiles, the reference by its stages read index by index. -/
theorem algebraic : Cert.algebraic_KernelIdeal_ReferenceIdeal := by
  intro m ρ m' ρ' _ hagree
  refine ⟨fun c => Cert.Adjacency.G (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  exact ((h c).1.trans (Cert.ReferenceIdeal.Read.val_main_v16_eq m' c)).trans
    ((Cert.ReferenceIdeal.RefValue.result_eq _).trans (congrArg Cert.Adjacency.G (hagree c)))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
